-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_squared" .f32 0x179ABE15#32 ((5316911940649 / 5316911983139663491615228241121378304 : ℝ) : EReal)
  ∧ IdealRules.named_const.Statement Cert.KernelIdeal.κ "inv_temperature" .f32 0x41200000#32 ((134217728 / 13421773 : ℝ) : EReal)
  ∧ IdealRules.named_const.Statement Cert.KernelIdeal.κ "eps_squared" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S8192x32 : Shape := ⟨2, ![8192, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S16384x32 .f32) (main_arg1 : FVec F S8192x32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Kernel.lean ====
abbrev S16384x32 : Shape := ⟨2, ![16384, 32]⟩
abbrev S8192x32 : Shape := ⟨2, ![8192, 32]⟩
abbrev S16384x8192 : Shape := ⟨2, ![16384, 8192]⟩
abbrev S256x8192 : Shape := ⟨2, ![256, 8192]⟩
abbrev S256x32 : Shape := ⟨2, ![256, 32]⟩
abbrev S256 : Shape := ⟨1, ![256]⟩
abbrev S256x1 : Shape := ⟨2, ![256, 1]⟩
abbrev S8192 : Shape := ⟨1, ![8192]⟩
abbrev S8192x1 : Shape := ⟨2, ![8192, 1]⟩

abbrev nBuf : Space → Nat
  | .hbm => 3
  | .vmem => 4
  | .smem => 0
  | _ => 0

abbrev bufTy : (tb : Table) → Fin (tcTables nBuf tb) → BufTy
  | .hbm, ⟨0, _⟩ => ⟨S16384x32, .f32⟩
  | .hbm, ⟨1, _⟩ => ⟨S8192x32, .f32⟩
  | .hbm, ⟨2, _⟩ => ⟨S16384x8192, .f32⟩
  | .local _ .vmem, ⟨0, _⟩ => ⟨S16384x32, .f32⟩
  | .local _ .vmem, ⟨1, _⟩ => ⟨S8192x32, .f32⟩
  | .local _ .vmem, ⟨2, _⟩ => ⟨S256x8192, .f32⟩
  | .local _ .vmem, ⟨3, _⟩ => ⟨S256x8192, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16384x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S256x32 : 0 < S256x32.numel
  inb_S8192x32_S8192x32_0_0 : ∀ a, (![0, 0] : Fin 2 → Nat) a + S8192x32.size a ≤ S8192x32.size a
  h_S8192x32 : 0 < S8192x32.numel
  reduces_S256x32_S256 : S256x32.Reduces [1] S256
  shapeCasts_S256_S256x1 : S256.ShapeCasts S256x1
  broadcasts_S256x1_S256x32 : S256x1.Broadcasts S256x32
  reduces_S8192x32_S8192 : S8192x32.Reduces [1] S8192
  shapeCasts_S8192_S8192x1 : S8192.ShapeCasts S8192x1
  broadcasts_S8192x1_S8192x32 : S8192x1.Broadcasts S8192x32
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  dot_S256x32_S8192x32_S256x8192_1_1_0_0_n_n_wf : DotDims.WF S256x32 S8192x32 S256x8192 [1] [1] [0] [0] [] []
  hrank0 : 0 < grid0.rank
  k0_off1_inb : ∀ i : grid0.Coords, ∀ a, (k0_off1 i) a + S256x32.size a ≤ S16384x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S16384x32.size a
  hwx0_0 : ∀ i : grid0.Coords, EltTy.bits .f32 = 32 ∨ (Rect.block (s := S16384x32) S16384x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S8192x32.size a
  hwx0_1 : ∀ i : grid0.Coords, EltTy.bits .f32 = 32 ∨ (Rect.block (s := S8192x32) S8192x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S16384x8192.size a
  hwx0_2 : ∀ i : grid0.Coords, EltTy.bits .f32 = 32 ∨ (Rect.block (s := S16384x8192) S256x8192.size (cc0_transform_2 i) (hinb0_2 i)).WholeWords (EltTy.packing .f32)

variable [Facts₀]

def dot_S256x32_S8192x32_S256x8192_1_1_0_0_n_n : DotDims S256x32 S8192x32 S256x8192 where
  lhsContracting := [1]
  rhsContracting := [1]
  lhsNonContracting := [0]
  rhsNonContracting := [0]
  lhsBatch := []
  rhsBatch := []
  wf := dot_S256x32_S8192x32_S256x8192_1_1_0_0_n_n_wf

abbrev win0_0 : Pipeline.Window sig grid0 :=
  Pipeline.Window.ofSpec (Memref.whole main_arg0) S16384x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x32 : Shape := ⟨2, ![16384, 32]⟩
abbrev S8192x32 : Shape := ⟨2, ![8192, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S32x8192 : Shape := ⟨2, ![32, 8192]⟩
abbrev S16384x8192 : Shape := ⟨2, ![16384, 8192]⟩

abbrev nBuf : Space → Nat
  | .hbm => 27
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S8192x32, .f32⟩
  | .hbm, ⟨2, _⟩ => ⟨S16384x32, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x32, .f32⟩
  | .hbm, ⟨11, _⟩ => ⟨S16384x32, .f32⟩
  | .hbm, ⟨12, _⟩ => ⟨S8192x32, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x32, .f32⟩
  | .hbm, ⟨21, _⟩ => ⟨S8192x32, .f32⟩
  | .hbm, ⟨22, _⟩ => ⟨S32x8192, .f32⟩
  | .hbm, ⟨23, _⟩ => ⟨S16384x8192, .f32⟩
  | .hbm, ⟨24, _⟩ => ⟨S_, .f32⟩
  | .hbm, ⟨25, _⟩ => ⟨S16384x8192, .f32⟩
  | .hbm, ⟨26, _⟩ => ⟨S16384x8192, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S16384x32_S16384_d1 : S16384x32.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x32_0_1 : S16384x1.BroadcastsInDim S16384x32 (![0, 1] : Fin 2 → Fin S16384x32.rank)
  reducesTo_S8192x32_S8192_d1 : S8192x32.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  transposes_S8192x32_S32x8192_1_0 : S8192x32.Transposes [1, 0] S32x8192
  bcast_S_S16384x8192 : S_.BroadcastsInDim S16384x8192 (![] : Fin 0 → Fin S16384x8192.rank)
  dot_S16384x32_S32x8192_S16384x8192_1_0_0_1_n_n_wf : DotDims.WF S16384x32 S32x8192 S16384x8192 [1] [0] [0] [1] [] []

variable [Facts₀]

def dot_S16384x32_S32x8192_S16384x8192_1_0_0_1_n_n : DotDims S16384x32 S32x8192 S16384x8192 where
  lhsContracting := [1]
  rhsContracting := [0]
  lhsNonContracting := [0]
  rhsNonContracting := [1]
  lhsBatch := []
  rhsBatch := []
  wf := dot_S16384x32_S32x8192_S16384x8192_1_0_0_1_n_n_wf

class Facts : Prop extends Facts₀ where

variable [Facts]
-- ==== Proof.CosineLaw.lean ====
/-
  One entry of the temperature-scaled cosine-similarity matrix of two families of rows, computed in two ways on the
  extended reals, and the law that the two ways agree on real rows.

  For a row `a` write `s(a) = Σ_k a_k²`. With a floor `δ > 0` on the norm and a temperature `τ ≠ 0`:

    * the first way scales the left row by `(1/τ) · rsqrt (max (s(a), δ²))` and the right row by `rsqrt (max (s(b), δ²))`,
      and sums the products of the scaled entries;
    * the second way divides each row by `max (sqrt s, δ)`, sums the products, and divides the sum by `τ`.

  They agree because the square root is monotone, so `sqrt (max (s, δ²)) = max (sqrt s, δ)` for `δ > 0`, and because on real
  numbers a common factor moves across a finite sum. Both uses of finiteness are essential: on the extended reals a factor
  does not move across a sum at the infinities. Nothing here depends on a program.
-/
import Idealize.ShloMosaic.PureOps.Ideal

noncomputable section

open scoped BigOperators

namespace CosineLogits

open Idealize.ShloMosaic

/-- The first way: rows scaled by the reciprocal square root of the floored sum of squares, the left one also by `ι`. -/
def kernelEntry {K : ℕ} (ε ι : EReal) (a b : Fin K → EReal) : EReal :=
  ∑ k, (a k * (ι * Ideal.rsqrt (max (∑ k', a k' * a k') ε))) * (b k * Ideal.rsqrt (max (∑ k', b k' * b k') ε))

/-- The second way: rows divided by the floored norm (the sum of squares started from `z`), the sum divided by `τ`. -/
def referenceEntry {K : ℕ} (z δ τ : EReal) (a b : Fin K → EReal) : EReal :=
  Ideal.div (∑ k, Ideal.div (a k) (max (Ideal.sqrt (z + ∑ k', a k' * a k')) δ)
    * Ideal.div (b k) (max (Ideal.sqrt (z + ∑ k', b k' * b k')) δ)) τ

/-- A finite sum of reals, seen in the extended reals, is the sum of the images. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The larger of two reals, seen in the extended reals, is the larger of the images. -/
theorem coe_max (x y : ℝ) : ((max x y : ℝ) : EReal) = max (x : EReal) (y : EReal) :=
  EReal.coe_strictMono.monotone.map_max

/-- The norm of a real row, floored at `D`. -/
def flooredNorm {K : ℕ} (D : ℝ) (u : Fin K → ℝ) : ℝ := max (Real.sqrt (∑ k, u k * u k)) D

theorem flooredNorm_pos {K : ℕ} {D : ℝ} (hD : 0 < D) (u : Fin K → ℝ) : 0 < flooredNorm D u :=
  lt_max_of_lt_right hD

/-- The square root of the sum of squares floored at `D²` is the norm floored at `D`. -/
theorem sqrt_max_sq {K : ℕ} {D : ℝ} (hD : 0 < D) (u : Fin K → ℝ) :
    Real.sqrt (max (∑ k, u k * u k) (D ^ 2)) = flooredNorm D u := by
  have hmono : Monotone Real.sqrt := fun _ _ h => Real.sqrt_le_sqrt h
  rw [hmono.map_max, Real.sqrt_sq hD.le]
  rfl

/-- The sum of the squares of a real row, seen in the extended reals. -/
theorem sumSq_coe {K : ℕ} (u : Fin K → ℝ) :
    (∑ k, (u k : EReal) * (u k : EReal)) = ((∑ k, u k * u k : ℝ) : EReal) := by
  rw [coe_sum]
  exact Finset.sum_congr rfl fun k _ => (EReal.coe_mul _ _).symm

/-- The first way's row scale: the reciprocal of the floored norm. -/
theorem rsqrt_floor {K : ℕ} {D : ℝ} (hD : 0 < D) (u : Fin K → ℝ) :
    Ideal.rsqrt (max (∑ k, (u k : EReal) * (u k : EReal)) ((D ^ 2 : ℝ) : EReal)) = (((flooredNorm D u)⁻¹ : ℝ) : EReal) := by
  rw [sumSq_coe, ← coe_max, Ideal.rsqrt_coe]
  have hpos : 0 < max (∑ k, u k * u k) (D ^ 2) := lt_max_of_lt_right (by positivity)
  rw [if_neg (not_lt.mpr hpos.le), if_neg hpos.ne', sqrt_max_sq hD]

/-- The second way's quotient: the entry times the reciprocal of the floored norm. -/
theorem div_floor {K : ℕ} {D : ℝ} (hD : 0 < D) (u : Fin K → ℝ) (x : ℝ) :
    Ideal.div (x : EReal) (max (Ideal.sqrt ((0 : EReal) + ∑ k, (u k : EReal) * (u k : EReal))) (D : EReal))
      = ((x * (flooredNorm D u)⁻¹ : ℝ) : EReal) := by
  have hs : (0 : ℝ) ≤ ∑ k, u k * u k := Finset.sum_nonneg fun k _ => mul_self_nonneg (u k)
  rw [zero_add, sumSq_coe, Ideal.sqrt_coe, if_neg (not_lt.mpr hs), ← coe_max]
  show Ideal.div (x : EReal) ((flooredNorm D u : ℝ) : EReal) = _
  rw [Ideal.div_coe (flooredNorm_pos hD u).ne', ← EReal.coe_mul, one_div]

/-- THE LAW: on real rows, with a positive floor `D` and a nonzero temperature `T`, the two ways give the same entry,
    when the first way's floor is `D²` and its extra factor `1/T`. -/
theorem kernelEntry_eq_referenceEntry {K : ℕ} {D T : ℝ} (hD : 0 < D) (hT : T ≠ 0) (u w : Fin K → ℝ) :
    kernelEntry ((D ^ 2 : ℝ) : EReal) ((1 / T : ℝ) : EReal) (fun k => (u k : EReal)) (fun k => (w k : EReal))
      = referenceEntry 0 (D : EReal) (T : EReal) (fun k => (u k : EReal)) (fun k => (w k : EReal)) := by
  unfold kernelEntry referenceEntry
  rw [rsqrt_floor hD u, rsqrt_floor hD w]
  simp only [div_floor hD u, div_floor hD w]
  simp only [← EReal.coe_mul, ← coe_sum]
  rw [Ideal.div_coe hT, ← EReal.coe_mul]
  refine congrArg (fun r : ℝ => (r : EReal)) ?_
  rw [Finset.sum_mul]
  exact Finset.sum_congr rfl fun k _ => by ring

end CosineLogits

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.LibRowNormalize.lean ====
/-
  Scaling every row of a matrix to unit length, read at an entry.

  For a block v of `a` rows of length `b` the computation is: square every entry, sum each row's squares along the lanes,
  keep the sums as a column, bound them below by a fixed float (given by its word `e`), take the reciprocal square root,
  spread the column back across the lanes and multiply. At the extended reals entry (r, d) of the result is

      v(r, d) · rsqrt (max (Σ_k v(r, k)², ε)),

  the lane sum being a plain finite sum (it starts from the neutral element of addition). General over the extents and over
  the bound's word; nothing here depends on a program.
-/
import Idealize.ShloMosaic.Lib.ValueIdx
import Idealize.ShloMosaic.PureOps.Ideal.Laws
import proofs.«129677_g38036230373755_cont_8to1_b_960_24_alg».proof.Proof.LibKeepdims

noncomputable section

open scoped BigOperators

namespace RowNormalize

open Idealize.ShloMosaic Idealize.ShloMosaic.ValueIdx

/-- The index the lane sum of row `r` reads at lane `k` is (r, k). -/
theorem lift_row {a b : ℕ} (hred : (⟨2, ![a, b]⟩ : Shape).Reduces [1] ⟨1, ![a]⟩) (r : Fin a) (k : Fin b) :
    hred.lift (ix1 r) k = ix2 r k :=
  funext fun ax => Fin.ext (by
    match ax with
    | ⟨0, _⟩ => rfl
    | ⟨1, _⟩ => rfl)

/-- A row's lane sum of squares, at the extended reals: the finite sum of the squares of the row's entries. -/
theorem sumSquares_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ (mulf v v) 0x00000000#32 hred hφ hacc (ix1 r) = ∑ k : Fin b, v (ix2 r k) * v (ix2 r k) := by
  refine (Ideal.multiReduction_add_single (mulf v v) 0x00000000#32 hred hφ hacc (ix1 r)).trans ?_
  refine Finset.sum_congr rfl fun k _ => ?_
  show v (hred.lift (ix1 r) k) * v (hred.lift (ix1 r) k) = _
  rw [lift_row hred r k]

/-- The row normalisation read at entry (r, d). -/
theorem normalize_apply {a b : ℕ} (e : BitVec 32) (v : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ)
    (hcast : (⟨1, ![a]⟩ : Shape).ShapeCasts ⟨2, ![a, 1]⟩) (hbc : (⟨2, ![a, 1]⟩ : Shape).Broadcasts ⟨2, ![a, b]⟩)
    (r : Fin a) (d : Fin b) :
    mulf v (broadcastTo ⟨2, ![a, b]⟩ (rsqrt (maximumf
        (shapeCast ⟨2, ![a, 1]⟩ (multiReduction .add [1] ⟨1, ![a]⟩ (mulf v v) 0x00000000#32 hred hφ hacc) hcast)
        (broadcast ⟨2, ![a, 1]⟩ (Scalar.ofBits (F := Ideal) .f32 e)))) hbc) (ix2 r d)
      = v (ix2 r d) * Ideal.rsqrt (max (∑ k : Fin b, v (ix2 r k) * v (ix2 r k)) (Ideal.ofBits .f32 e)) := by
  rw [mulf_apply, Keepdims.broadcastTo_a1_ab_apply]
  refine congrArg (v (ix2 r d) * ·) ?_
  show Ideal.rsqrt (max (shapeCast ⟨2, ![a, 1]⟩ (multiReduction .add [1] ⟨1, ![a]⟩ (mulf v v) 0x00000000#32 hred hφ hacc) hcast
    (ix2 r (0 : Fin 1))) (Ideal.ofBits .f32 e)) = _
  rw [Keepdims.shapeCast_a_a1_apply, sumSquares_apply]

end RowNormalize

end
-- ==== Proof.LibRowScale.lean ====
/-
  Scaling every row of a matrix by the reciprocal square root of its floored sum of squares, read at an entry, when the
  floor is ANY scalar of the extended reals (not a float word) and the column of scales may carry one more scalar factor.

  For a block v of `a` rows of length `b`: square every entry, sum each row along the lanes, keep the sums as a column,
  bound them below by the scalar ε, take the reciprocal square root — optionally multiply the column by a scalar ι —,
  spread the column back across the lanes and multiply. At entry (r, d) the result is

      v(r, d) · rsqrt (max (Σ_k v(r, k)², ε))        and        v(r, d) · (ι · rsqrt (max (Σ_k v(r, k)², ε))).

  General over the extents and over both scalars; nothing here depends on a program.
-/
import Idealize.ShloMosaic.Lib.ValueIdx
import Idealize.ShloMosaic.PureOps.Ideal.Laws
import proofs.«129677_g38036230373755_cont_8to1_b_960_24_alg».proof.Proof.LibKeepdims
import proofs.«129677_g38036230373755_cont_8to1_b_960_24_alg».proof.Proof.LibRowNormalize

noncomputable section

open scoped BigOperators

namespace RowScale

open Idealize.ShloMosaic Idealize.ShloMosaic.ValueIdx

/-- The column of scales at row `r`: the reciprocal square root of the row's sum of squares floored at ε. -/
theorem rsqrtColumn_apply {a b : ℕ} (ε : Ideal .f32) (v : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ)
    (hcast : (⟨1, ![a]⟩ : Shape).ShapeCasts ⟨2, ![a, 1]⟩) (r : Fin a) :
    rsqrt (maximumf
        (shapeCast ⟨2, ![a, 1]⟩ (multiReduction .add [1] ⟨1, ![a]⟩ (mulf v v) 0x00000000#32 hred hφ hacc) hcast)
        (broadcast ⟨2, ![a, 1]⟩ ε)) (ix2 r (0 : Fin 1))
      = Ideal.rsqrt (max (∑ k : Fin b, v (ix2 r k) * v (ix2 r k)) ε) := by
  show Ideal.rsqrt (max (shapeCast ⟨2, ![a, 1]⟩ (multiReduction .add [1] ⟨1, ![a]⟩ (mulf v v) 0x00000000#32 hred hφ hacc) hcast
    (ix2 r (0 : Fin 1))) ε) = _
  rw [Keepdims.shapeCast_a_a1_apply, RowNormalize.sumSquares_apply]

/-- Rows scaled by the column of scales, at entry (r, d). -/
theorem scaled_apply {a b : ℕ} (ε : Ideal .f32) (v : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ)
    (hcast : (⟨1, ![a]⟩ : Shape).ShapeCasts ⟨2, ![a, 1]⟩) (hbc : (⟨2, ![a, 1]⟩ : Shape).Broadcasts ⟨2, ![a, b]⟩)
    (r : Fin a) (d : Fin b) :
    mulf v (broadcastTo ⟨2, ![a, b]⟩ (rsqrt (maximumf
        (shapeCast ⟨2, ![a, 1]⟩ (multiReduction .add [1] ⟨1, ![a]⟩ (mulf v v) 0x00000000#32 hred hφ hacc) hcast)
        (broadcast ⟨2, ![a, 1]⟩ ε))) hbc) (ix2 r d)
      = v (ix2 r d) * Ideal.rsqrt (max (∑ k : Fin b, v (ix2 r k) * v (ix2 r k)) ε) := by
  rw [mulf_apply, Keepdims.broadcastTo_a1_ab_apply, rsqrtColumn_apply]

/-- Rows scaled by ι times the column of scales, at entry (r, d). -/
theorem factorScaled_apply {a b : ℕ} (ε ι : Ideal .f32) (v : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ)
    (hcast : (⟨1, ![a]⟩ : Shape).ShapeCasts ⟨2, ![a, 1]⟩) (hbc : (⟨2, ![a, 1]⟩ : Shape).Broadcasts ⟨2, ![a, b]⟩)
    (r : Fin a) (d : Fin b) :
    mulf v (broadcastTo ⟨2, ![a, b]⟩ (mulf (broadcast ⟨2, ![a, 1]⟩ ι) (rsqrt (maximumf
        (shapeCast ⟨2, ![a, 1]⟩ (multiReduction .add [1] ⟨1, ![a]⟩ (mulf v v) 0x00000000#32 hred hφ hacc) hcast)
        (broadcast ⟨2, ![a, 1]⟩ ε)))) hbc) (ix2 r d)
      = v (ix2 r d) * (ι * Ideal.rsqrt (max (∑ k : Fin b, v (ix2 r k) * v (ix2 r k)) ε)) := by
  rw [mulf_apply, Keepdims.broadcastTo_a1_ab_apply, mulf_apply, broadcast_apply, rsqrtColumn_apply]

end RowScale

end
-- ==== Proof.LibRowsDot.lean ====
/-
  A matrix product whose dimension numbers contract the LAST axis of BOTH operands, with no batch axis — rows of the left
  operand against rows of the right one, x · wᵀ for x : [M, K] and w : [N, K] — read at an index. For such a record the left
  operand is read at (row, k) and the right at (column, k), so at the extended reals a product into the zero accumulator is
  the sum over k of x(row, k) · w(column, k), in any order and grouping (addition of extended reals is commutative and
  associative). Nothing here depends on a program: the record's coordinate facts are hypotheses, which each use site proves
  from its own record by unfolding.
-/
import Idealize.ShloMosaic.Lib.ValueIdx
import Idealize.ShloMosaic.PureOps.Ideal.Laws

noncomputable section

open scoped BigOperators

namespace RowsDot

open Idealize.ShloMosaic Idealize.ShloMosaic.ValueIdx

/-- The dimension numbers `D` are those of a rows-against-rows [M, K] × [N, K] product: one contracted axis of extent K;
    the left operand read at (row of the result, contraction position) and the right at (column of the result,
    contraction position). -/
structure IsRowsByRows {M K N : Nat} (D : DotDims ⟨2, ![M, K]⟩ ⟨2, ![N, K]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (i 1).val
  rhs1 : ∀ (i : (⟨2, ![M, N]⟩ : Shape).Idx) (q : D.contr.Idx), (D.rhsIdx i q 1).val = (q ⟨0, by omega⟩).val

variable {M K N : Nat} {φ₁ φ₂ : FTy}

/-- The left operand's index at result index (r, j) and contraction position k is (r, k). -/
theorem IsRowsByRows.lhsIdx_eq {D : DotDims ⟨2, ![M, K]⟩ ⟨2, ![N, K]⟩ ⟨2, ![M, N]⟩} (h : IsRowsByRows D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

/-- The right operand's index at result index (r, j) and contraction position k is (j, k). -/
theorem IsRowsByRows.rhsIdx_eq {D : DotDims ⟨2, ![M, K]⟩ ⟨2, ![N, K]⟩ ⟨2, ![M, N]⟩} (h : IsRowsByRows D) (r : Fin M) (j : Fin N) (k : Fin K) :
    D.rhsIdx (ix2 r j) ((contrEquiv1 D K h.rank h.size).symm k) = ix2 j k :=
  funext fun a => Fin.ext (by
    match a with
    | ⟨0, _⟩ => exact h.rhs0 _ _
    | ⟨1, _⟩ => exact (h.rhs1 _ _).trans (contrEquiv1_symm_val D K h.rank h.size k))

/-- A rows-against-rows product into the zero accumulator, at the extended reals, read at (r, j): the sum over the
    contracted axis of x(r, k) · w(j, k). -/
theorem matmul_zero_apply (D : DotDims ⟨2, ![M, K]⟩ ⟨2, ![N, K]⟩ ⟨2, ![M, N]⟩) (h : IsRowsByRows D) (prec : Option ContractPrecision)
    (x : FVec Ideal ⟨2, ![M, K]⟩ φ₁) (w : FVec Ideal ⟨2, ![N, K]⟩ φ₂) (r : Fin M) (j : Fin N) :
    FloatOps.matmul D prec x w (constant (F := Ideal) ⟨2, ![M, N]⟩ .f32 0x00000000#32) (ix2 r j)
      = ∑ k : Fin K, x (ix2 r k) * w (ix2 j k) := by
  rw [Ideal.matmul_constant_zero_apply, ← Equiv.sum_comp (contrEquiv1 D K h.rank h.size).symm]
  refine Finset.sum_congr rfl fun k _ => ?_
  rw [h.lhsIdx_eq r j k, h.rhsIdx_eq r j k]

end RowsDot

end
-- ==== Proof.KernelPayload.lean ====
/-
  The kernel's stored block read at an entry. From a block of 256 rows of the first argument and the whole second
  argument the body forms, at (p, q), the first way of `CosineLaw`: the rows scaled by the reciprocal square root of
  their floored sums of squares (the left one also by the named temperature factor), and the products of the scaled
  entries summed over the 32 columns by the matrix unit. The two roundings to half precision on the way into the product
  are the identity on the extended reals.
-/
import proofs.«129677_g38036230373755_cont_8to1_b_960_24_alg».proof.Proof.Gen.KernelIdeal.Skeleton
import proofs.«129677_g38036230373755_cont_8to1_b_960_24_alg».proof.Proof.CosineLaw
import proofs.«129677_g38036230373755_cont_8to1_b_960_24_alg».proof.Proof.LibRowScale
import proofs.«129677_g38036230373755_cont_8to1_b_960_24_alg».proof.Proof.LibRowsDot
import Idealize.ShloMosaic.PureOps.IdealRules

noncomputable section

namespace Cert.KernelIdeal.Payload

open Cert.KernelIdeal Cert.KernelIdeal.Gen
open Idealize.ShloMosaic Idealize.ShloMosaic.ValueIdx

/-- The floor on the sums of squares, as the table names it. -/
abbrev epsNamed : Ideal .f32 := Named.named (F := Ideal) κ "eps_squared" (φ := .f32) 0x179ABE15#32

/-- The temperature factor, as the table names it. -/
abbrev invNamed : Ideal .f32 := Named.named (F := Ideal) κ "inv_temperature" (φ := .f32) 0x41200000#32

theorem epsNamed_eq : epsNamed = ((5316911940649 / 5316911983139663491615228241121378304 : ℝ) : EReal) :=
  IdealRules.named_const.ideal_named_scalar _ _ _ _ rfl

theorem invNamed_eq : invNamed = ((134217728 / 13421773 : ℝ) : EReal) :=
  IdealRules.named_const.ideal_named_scalar _ _ _ _ rfl

/-- The product's dimension numbers contract the last axis of both operands: rows against rows. -/
theorem rowsByRows : RowsDot.IsRowsByRows dot_S256x32_S8192x32_S256x8192_1_1_0_0_n_n where
  rank := rfl
  size := rfl
  lhs0 := fun i q => by
    unfold DotDims.lhsIdx
    rw [dif_neg (show ¬(0 : Fin S256x32.rank) ∈ dot_S256x32_S8192x32_S256x8192_1_1_0_0_n_n.lhsBatch by decide),
      dif_pos (show (0 : Fin S256x32.rank) ∈ dot_S256x32_S8192x32_S256x8192_1_1_0_0_n_n.lhsNonContracting by decide)]
    rfl
  lhs1 := fun i q => dot_S256x32_S8192x32_S256x8192_1_1_0_0_n_n.lhsIdx_val_of_single rfl i q
  rhs0 := fun i q => by
    unfold DotDims.rhsIdx
    rw [dif_neg (show ¬(0 : Fin S8192x32.rank) ∈ dot_S256x32_S8192x32_S256x8192_1_1_0_0_n_n.rhsBatch by decide),
      dif_pos (show (0 : Fin S8192x32.rank) ∈ dot_S256x32_S8192x32_S256x8192_1_1_0_0_n_n.rhsNonContracting by decide)]
    rfl
  rhs1 := fun i q => dot_S256x32_S8192x32_S256x8192_1_1_0_0_n_n.rhsIdx_val_of_single rfl i q

/-- THE STORED BLOCK AT AN ENTRY. -/
theorem pay_apply (v2 : Vec Ideal S256x32 .f32) (v3 : Vec Ideal S8192x32 .f32) (p : Fin 256) (q : Fin 8192) :
    k0_pay1 (F := Ideal) v2 v3 (ix2 p q)
      = CosineLogits.kernelEntry epsNamed invNamed (fun k => v2 (ix2 p k)) (fun k => v3 (ix2 q k)) := by
  unfold k0_pay1 CosineLogits.kernelEntry
  dsimp only
  refine (RowsDot.matmul_zero_apply dot_S256x32_S8192x32_S256x8192_1_1_0_0_n_n rowsByRows none _ _ p q).trans ?_
  refine Finset.sum_congr rfl fun k _ => ?_
  refine congrArg₂ (· * ·) ?_ ?_
  · exact RowScale.factorScaled_apply epsNamed invNamed v2 _ _ _ _ _ p k
  · exact RowScale.scaled_apply epsNamed v3 _ _ _ _ _ q k

end Cert.KernelIdeal.Payload

end
-- ==== Proof.KernelBlocks.lean ====
/-
  The kernel's result array as one function of its two arguments.

  Grid point t stages both arguments whole, loads rows 256·t … 256·t + 255 of the first and all of the second, and stores
  the block of entries (p, q) ↦ first way of `CosineLaw` on row p of the loaded rows and row q of the second argument.
  That block is written back to rows 256·t … 256·t + 255 of the result. So block t of the result is the restriction of ONE
  function of the arguments — entry (r, j) from row r of the first argument and row j of the second —, and since the 64
  blocks of 256 rows tile the 16384 rows, the whole array ends at that function (row r lies in block r / 256).
-/
import proofs.«129677_g38036230373755_cont_8to1_b_960_24_alg».proof.Proof.Gen.KernelIdeal.Value
import proofs.«129677_g38036230373755_cont_8to1_b_960_24_alg».proof.Proof.KernelPayload
import Idealize.ShloMosaic.Lib.Pipeline.Value
import Idealize.ShloMosaic.Lib.Tactic

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- THE RESULT as one function of the argument arrays: entry (r, j) is the first way on row r of `x` and row j of `g`. -/
def logits (x : S16384x32.Idx → Elt Ideal .f32) (g : S8192x32.Idx → Elt Ideal .f32) : S16384x8192.Idx → Elt Ideal .f32 :=
  fun z => CosineLogits.kernelEntry Payload.epsNamed Payload.invNamed
    (fun k : Fin 32 => x (ix2 (⟨(z 0).val, idx2_lt0 z⟩ : Fin 16384) k))
    (fun k : Fin 32 => g (ix2 (⟨(z 1).val, idx2_lt1 z⟩ : Fin 8192) k))

/-- What the body leaves in the output's staging buffer: its one covering store's block, of the rows it loaded from the
    staged first argument and of the staged second argument. -/
theorem out_eq (c : Dev nD) (i : grid0.Coords) (a1 : Memref sig .tc .vmem S16384x32 .f32) (h1 : a1.IsWhole)
    (a2 : Memref sig .tc .vmem S8192x32 .f32) (h2 : a2.IsWhole) (a3 : Memref sig .tc .vmem S256x8192 .f32) (h3 : a3.IsWhole)
    (x0 : Vec Ideal S16384x32 .f32) (x1 : Vec Ideal S8192x32 .f32) :
    out0_A_2 c i a1 h1 a2 h2 a3 h3 x0 x1
      = k0_pay1 (View.ld x0 (Rect.unit (s := S16384x32) (k0_off1 i) S256x32.size (k0_off1_inb i))) x1 := by
  unfold out0_A_2
  rw [View.read_writes_eq_canon _ _ _ (cover0_A_2 c i a1 h1 a2 h2 a3 h3 x0 x1)]
  unfold kernelRun0_A
  dsimp only
  rw [View.canon_unit_zero hz]
  simp only [View.readAt_eq_ld, h1.read_unread, h2.read_unread, View.ld_unit_zero (S := S8192x32) hz]

/-- Row p of the rows loaded at grid coordinate i is row 256·i + p of the staged array. -/
theorem loaded_row (x0 : Vec Ideal S16384x32 .f32) (i : grid0.Coords) (p : Fin 256) (k : Fin 32) (r : Fin 16384)
    (hr : r.val = 256 * (i 0).val + p.val) :
    View.ld x0 (Rect.unit (s := S16384x32) (k0_off1 i) S256x32.size (k0_off1_inb i)) (ix2 p k) = x0 (ix2 r k) := by
  show x0 _ = x0 _
  refine congrArg x0 (funext fun a => Fin.ext ?_)
  match a with
  | ⟨0, _⟩ =>
    show k0_off1 i 0 + 1 * p.val = r.val
    rw [k0_off1_eq]
    show 256 * (i 0).val + 1 * p.val = r.val
    omega
  | ⟨1, _⟩ =>
    show k0_off1 i 1 + 1 * k.val = k.val
    rw [k0_off1_eq]
    show 0 + 1 * k.val = k.val
    omega

/-- One entry of the stored block is the result function at the entry's place in the array. -/
theorem block_entry (x0 : Vec Ideal S16384x32 .f32) (x1 : Vec Ideal S8192x32 .f32) (i : grid0.Coords)
    (y : S256x8192.Idx) (z : S16384x8192.Idx)
    (h0 : (z 0).val = 256 * (i 0).val + (y 0).val) (h1 : (z 1).val = (y 1).val) :
    k0_pay1 (F := Ideal) (View.ld x0 (Rect.unit (s := S16384x32) (k0_off1 i) S256x32.size (k0_off1_inb i))) x1 y
      = logits x0 x1 z := by
  obtain ⟨p, q, rfl⟩ : ∃ (p : Fin 256) (q : Fin 8192), y = ix2 p q := ⟨y 0, y 1, eq_ix2 y⟩
  refine (Payload.pay_apply _ _ p q).trans ?_
  unfold logits
  have hq : (⟨(z 1).val, idx2_lt1 z⟩ : Fin 8192) = q := Fin.ext h1
  rw [hq]
  refine congrArg (fun a => CosineLogits.kernelEntry Payload.epsNamed Payload.invNamed a (fun k => x1 (ix2 q k))) ?_
  funext k
  exact loaded_row x0 i p k _ h0

variable (m : (ℓ : Loc nD τ sig) → Buf (Elt Ideal) ℓ) (ρ : Dev nD → PrngReg)

/-- The index maps, decided over the 64 grid points: the inputs' blocks are the whole arrays, the output's block is the
    point's own row block, and a point's one coordinate is its number. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = (grid0.coords t 0).val ∧ win0_2.index t (1 : Fin 2) = 0
    ∧ (grid0.coords t 0).val = t.val :=
  (by decide +kernel : ∀ t : Fin grid0.N, _)

/-- The first argument's block at every point is the whole array as the region finds it. -/
theorem iblk0_eq (c : Dev nD) (t : Fin cfg0.N) : (iblk m c 0 t : Vec Ideal S16384x32 .f32) = V m c main_arg0 := by
  obtain ⟨e0, e1, -⟩ := idx_facts t
  funext y
  show V m c main_arg0 (((cfg0.win 0).blk t).view.emb y) = V m c main_arg0 y
  refine congrArg (V m c main_arg0) (funext fun a => Fin.ext ?_)
  match a with
  | ⟨0, _⟩ => show win0_0.index t (0 : Fin 2) * 16384 + 1 * (y 0).val = (y 0).val; rw [e0]; omega
  | ⟨1, _⟩ => show win0_0.index t (1 : Fin 2) * 32 + 1 * (y 1).val = (y 1).val; rw [e1]; omega

/-- The second argument's block at every point is the whole array as the region finds it. -/
theorem iblk1_eq (c : Dev nD) (t : Fin cfg0.N) : (iblk m c 1 t : Vec Ideal S8192x32 .f32) = V m c main_arg1 := by
  obtain ⟨-, -, e0, e1, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 8192 + 1 * (y 0).val = (y 0).val; rw [e0]; omega
  | ⟨1, _⟩ => show win0_1.index t (1 : Fin 2) * 32 + 1 * (y 1).val = (y 1).val; rw [e1]; omega

/-- WHAT POINT t WRITES BACK is block t of the result function of the argument arrays. -/
theorem flushed_eq (c : Dev nD) (t : Fin cfg0.N) :
    (dats m 0 c).flushed 2 t
      = ((cfg0.win 2).blk t).view.read (Elt Ideal) (logits (V m c main_arg0) (V m c main_arg1)) := by
  rw [Cert.KernelIdeal.Value.flushed2_A,
    out_eq c (grid0.coords t) (ms0_0 t) (hs0_0 t) (ms0_1 t) (hs0_1 t) (ms0_2 t) (hs0_2 t) (iblk m c 0 t) (iblk m c 1 t),
    iblk0_eq, iblk1_eq]
  obtain ⟨-, -, -, -, e0, e1, -⟩ := idx_facts t
  funext j
  refine block_entry (V m c main_arg0) (V m c main_arg1) (grid0.coords t) j (((cfg0.win 2).blk t).view.emb j) ?_ ?_
  · show win0_2.index t (0 : Fin 2) * 256 + 1 * (j 0).val = 256 * (grid0.coords t 0).val + (j 0).val
    rw [e0]; omega
  · show win0_2.index t (1 : Fin 2) * 8192 + 1 * (j 1).val = (j 1).val
    rw [e1]; omega

/-- An index of the result is in point t's block iff each coordinate is in the block's range on its axis. -/
theorem mem_blk (t : Fin cfg0.N) (z : S16384x8192.Idx) :
    z ∈ ((cfg0.win 2).blk t).view.set ↔ ∀ a : Fin 2, win0_2.index t a * S256x8192.size a ≤ (z a).val
      ∧ (z a).val < win0_2.index t a * S256x8192.size a + S256x8192.size a := by
  show z ∈ ((View.whole main_v0).slice (win0_2.rect t)).set ↔ _
  rw [View.set_slice_whole, Rect.mem_set_unit]
  exact Iff.rfl

/-- THE ARRAY after the run is the result function of the argument arrays: row r lies in the block of point r / 256. -/
theorem final (c : Dev nD) : (dats m 0 c).arrAt 2 cfg0.N = logits (V m c main_arg0) (V m c main_arg1) :=
  (dats m 0 c).arrAt_eq_of_cover 2 _ (fun t _ => flushed_eq m c t) fun z => by
    have hN : cfg0.N = 64 := N_0
    have hz0 : (z 0).val < 16384 := (z 0).isLt
    have hz1 : (z 1).val < 8192 := (z 1).isLt
    obtain ⟨t, ht⟩ : ∃ t : Fin cfg0.N, t.val = (z 0).val / 256 := ⟨⟨(z 0).val / 256, by rw [hN]; omega⟩, rfl⟩
    obtain ⟨-, -, -, -, e0, e1, e2⟩ := idx_facts t
    refine ⟨t, flush0_2 t, ?_⟩
    rw [mem_blk]
    intro a
    match a with
    | ⟨0, _⟩ =>
      show win0_2.index t (0 : Fin 2) * 256 ≤ (z 0).val ∧ (z 0).val < win0_2.index t (0 : Fin 2) * 256 + 256
      rw [e0, e2, ht]; omega
    | ⟨1, _⟩ =>
      show win0_2.index t (1 : Fin 2) * 8192 ≤ (z 1).val ∧ (z 1).val < win0_2.index t (1 : Fin 2) * 8192 + 8192
      rw [e1]; omega

/-- The run, read: the result array at the result function of the arguments, the arguments unchanged. -/
theorem run : θ_run defs (onTc (τ := τ) (main (F := Ideal))) ⟨m, fun _ => 0, ρ⟩ fun r => ∀ c : Dev nD,
      r.2.mem ((c : Thread nD τ).loc main_v0)
        = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Blocks

end
-- ==== Proof.ReferenceRead.lean ====
/-
  The reference read at an entry. Its result at (i, j) is the second way of `CosineLaw`: row i of the first argument and
  row j of the second, each divided by its norm floored at the reference's floor word, the products summed over the 32
  columns (the transpose only renames which coordinate of the second operand the contraction runs over), and the sum
  divided by the temperature word.
-/
import proofs.«129677_g38036230373755_cont_8to1_b_960_24_alg».proof.Proof.Gen.ReferenceIdeal.Read
import proofs.«129677_g38036230373755_cont_8to1_b_960_24_alg».proof.Proof.CosineLaw

noncomputable section

namespace Cert.ReferenceIdeal.RefValue

open Cert.ReferenceIdeal Cert.ReferenceIdeal.Gen Cert.ReferenceIdeal.Read
open Idealize.ShloMosaic Idealize.ShloMosaic.ValueIdx

/-- The left operand of the contraction is read at (i, k). -/
theorem lidx_eq (i : Fin 16384) (j : Fin 8192) (k : Fin 32) : lidx_main_v17 (ix2 i j) k = ix2 i k :=
  funext fun a => Fin.ext (by match a with | ⟨0, _⟩ => rfl | ⟨1, _⟩ => rfl)

/-- The right operand, a transpose, is read at (j, k) of the matrix before the transpose. -/
theorem ridx_eq (i : Fin 16384) (j : Fin 8192) (k : Fin 32) : idx_main_v16 (ridx_main_v17 (ix2 i j) k) = ix2 j k :=
  funext fun a => Fin.ext (by match a with | ⟨0, _⟩ => rfl | ⟨1, _⟩ => rfl)

/-- The row sum feeding entry (i, k) of the first argument's divisor runs over row i. -/
theorem rowx_eq (i : Fin 16384) (k k' : Fin 32) : idx_main_v1 (idx_main_v2 (idx_main_v6 (ix2 i k))) k' = ix2 i k' :=
  funext fun a => Fin.ext (by match a with | ⟨0, _⟩ => rfl | ⟨1, _⟩ => rfl)

/-- The row sum feeding entry (j, k) of the second argument's divisor runs over row j. -/
theorem rowg_eq (j : Fin 8192) (k k' : Fin 32) : idx_main_v9 (idx_main_v10 (idx_main_v14 (ix2 j k))) k' = ix2 j k' :=
  funext fun a => Fin.ext (by match a with | ⟨0, _⟩ => rfl | ⟨1, _⟩ => rfl)

/-- THE REFERENCE AT AN ENTRY. -/
theorem result_apply (x : (⟨S16384x32, .f32⟩ : BufTy).Contents (Elt Ideal)) (g : (⟨S8192x32, .f32⟩ : BufTy).Contents (Elt Ideal))
    (i : Fin 16384) (j : Fin 8192) :
    val_main_v19 (F := Ideal) x g (ix2 i j)
      = CosineLogits.referenceEntry (Ideal.ofBits .f32 0x00000000#32) (Ideal.ofBits .f32 0x2B8CBCCC#32)
          (Ideal.ofBits .f32 0x3DCCCCCD#32) (fun k => x (ix2 i k)) (fun k => g (ix2 j k)) := by
  unfold CosineLogits.referenceEntry
  rw [val_main_v19_apply, val_main_v17_apply, val_main_v18_apply, val_main_cst_3_apply]
  simp only [val_main_v7_apply, val_main_v16_apply, val_main_v15_apply, val_main_v6_apply, val_main_v14_apply,
    val_main_v5_apply, val_main_v13_apply, val_main_v3_apply, val_main_v11_apply, val_main_v4_apply, val_main_v12_apply,
    val_main_v2_apply, val_main_v10_apply, val_main_v1_apply, val_main_v9_apply, val_main_v0_apply, val_main_v8_apply,
    val_main_cst_apply, val_main_cst_0_apply, val_main_cst_1_apply, val_main_cst_2_apply,
    lidx_eq, ridx_eq, rowx_eq, rowg_eq,
    Ideal.hostDivf_def, Ideal.hostUnary_sqrt_def, Ideal.maximumf_def, Ideal.mulf_def, Ideal.ofBits_def]

end Cert.ReferenceIdeal.RefValue

end
-- ==== Proof.Consts.lean ====
/-
  The two float words the reference spells, as the exact rationals they denote on the extended reals:
  the norm floor `0x2B8CBCCC` (the single-precision value nearest 1e-12) is 9223372 / 2^63 = 2305843 / 2^61, and the
  temperature `0x3DCCCCCD` (the single-precision value nearest 0.1) is 13421773 / 2^27. The square of the first and the
  reciprocal of the second are the values the kernel's two named constants take.
-/
import Idealize.ShloMosaic.PureOps.Ideal

noncomputable section

namespace CosineLogits

open Idealize.ShloMosaic

/-- The norm floor: the real number the word `0x2B8CBCCC` denotes. -/
def floorD : ℝ := 2305843 / 2305843009213693952

/-- The temperature: the real number the word `0x3DCCCCCD` denotes. -/
def temperature : ℝ := 13421773 / 134217728

theorem floorD_pos : 0 < floorD := by unfold floorD; norm_num

theorem temperature_ne_zero : temperature ≠ 0 := by unfold temperature; norm_num

/-- The floor's square is the value named for the kernel's floor on the sum of squares. -/
theorem floorD_sq : floorD ^ 2 = 5316911940649 / 5316911983139663491615228241121378304 := by
  unfold floorD; norm_num

/-- The temperature's reciprocal is the value named for the kernel's scale. -/
theorem one_div_temperature : 1 / temperature = 134217728 / 13421773 := by
  unfold temperature; norm_num

theorem ofBits_floor : Ideal.ofBits .f32 0x2B8CBCCC#32 = ((floorD : ℝ) : EReal) := by
  unfold floorD
  simp [Ideal.ofBits, Ideal.ieee, -EReal.coe_mul]; norm_num

theorem ofBits_temperature : Ideal.ofBits .f32 0x3DCCCCCD#32 = ((temperature : ℝ) : EReal) := by
  unfold temperature
  simp [Ideal.ofBits, Ideal.ieee, -EReal.coe_mul]; norm_num

end CosineLogits

end
-- ==== Proof.Bridge.lean ====
/-
  The two programs compute one function of real-entried arguments.

  At entry (i, j) the kernel's result is the first way of `CosineLaw` on row i of the first argument and row j of the
  second, with floor the named value (2305843 / 2^61)² and factor the named value 2^27 / 13421773; the reference's result
  is the second way on the same rows, with floor the number 2305843 / 2^61 its floor word denotes, temperature the number
  13421773 / 2^27 its temperature word denotes, and the sums of squares started from the zero word. The named floor is the
  square of the reference's floor and the named factor the reciprocal of the reference's temperature, so the law applies.
-/
import proofs.«129677_g38036230373755_cont_8to1_b_960_24_alg».proof.Proof.KernelBlocks
import proofs.«129677_g38036230373755_cont_8to1_b_960_24_alg».proof.Proof.ReferenceRead
import proofs.«129677_g38036230373755_cont_8to1_b_960_24_alg».proof.Proof.Consts

noncomputable section

namespace Cert.Proof.Bridge

open Idealize.ShloMosaic Idealize.ShloMosaic.ValueIdx

/-- The named floor is the square of the reference's floor. -/
theorem eps_eq : Cert.KernelIdeal.Payload.epsNamed = ((CosineLogits.floorD ^ 2 : ℝ) : EReal) := by
  rw [Cert.KernelIdeal.Payload.epsNamed_eq, CosineLogits.floorD_sq]

/-- The named factor is the reciprocal of the reference's temperature. -/
theorem inv_eq : Cert.KernelIdeal.Payload.invNamed = ((1 / CosineLogits.temperature : ℝ) : EReal) := by
  rw [Cert.KernelIdeal.Payload.invNamed_eq, CosineLogits.one_div_temperature]

/-- THE BRIDGE: on arguments whose entries are real numbers the kernel's result function is the reference's last stage. -/
theorem logits_eq_reference (x : (⟨2, ![16384, 32]⟩ : Shape).Idx → EReal) (g : (⟨2, ![8192, 32]⟩ : Shape).Idx → EReal)
    (hx : ∀ i, ∃ r : ℝ, x i = (r : EReal)) (hg : ∀ i, ∃ r : ℝ, g i = (r : EReal)) :
    Cert.KernelIdeal.Blocks.logits x g = Cert.ReferenceIdeal.Read.val_main_v19 (F := Ideal) x g := by
  choose xr hxr using hx
  choose gr hgr using hg
  funext z
  obtain ⟨i, j, rfl⟩ : ∃ (i : Fin 16384) (j : Fin 8192), z = ix2 i j := ⟨z 0, z 1, eq_ix2 z⟩
  rw [Cert.ReferenceIdeal.RefValue.result_apply]
  show CosineLogits.kernelEntry Cert.KernelIdeal.Payload.epsNamed Cert.KernelIdeal.Payload.invNamed
    (fun k : Fin 32 => x (ix2 i k)) (fun k : Fin 32 => g (ix2 j k)) = _
  rw [eps_eq, inv_eq, Ideal.ofBits_zero_f32, CosineLogits.ofBits_floor, CosineLogits.ofBits_temperature]
  simp only [hxr, hgr]
  exact CosineLogits.kernelEntry_eq_referenceEntry CosineLogits.floorD_pos CosineLogits.temperature_ne_zero _ _

end Cert.Proof.Bridge

end
-- ==== Proof.FiniteInputs.lean ====
/-
  What the precondition gives: every entry of both arguments is a real number.

  The precondition is the conjunction of two tests "every entry has absolute value below +∞", each an all-reduction of
  the entrywise comparison. On the extended reals |x| < +∞ fails exactly at the two infinities, so an entry that passes
  is the image of a real. The law joining kernel and reference needs this: a common factor moves across a finite sum of
  reals, not across one with infinite terms.
-/
import proofs.«129677_g38036230373755_cont_8to1_b_960_24_alg».proof.Pre_finite_inputs
import proofs.«129677_g38036230373755_cont_8to1_b_960_24_alg».proof.Proof.Gen.Pre_finite_inputs
import Idealize.ShloMosaic.Lib.ReduceAll
import Idealize.ShloMosaic.Lib.Affine
import Idealize.ShloMosaic.Lib.ValueIdx
import Idealize.ShloMosaic.Lib.KernelVsHost

noncomputable section

namespace Cert.Pre_finite_inputs.Finite

open Cert.Pre_finite_inputs Idealize.ShloMosaic

instance : Subsingleton S_.Idx := ⟨fun a b => funext fun d => d.elim0⟩

/-- An extended real whose absolute value is below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [← Ideal.xori_weird_eq_hostAbsf_olt_inf] at h
  have hw : ¬(x = ⊤ ∨ x = ⊥) := by
    intro hx
    have e : IntOp.xori (BitVec.ofBool (decide (x = ⊤ ∨ x = ⊥))) 1#1 = 1#1 := h
    rw [decide_eq_true hx] at e
    exact absurd e (by decide)
  induction x using EReal.rec with
  | bot => exact absurd (Or.inr rfl) hw
  | coe r => exact ⟨r, rfl⟩
  | top => exact absurd (Or.inl rfl) hw

/-- Under the precondition every entry of both arguments is a real number. -/
theorem real_entries (x : FVec Ideal S16384x32 .f32) (g : FVec Ideal S8192x32 .f32)
    (h : fn (F := Ideal) x g = fun _ => 1#1) :
    (∀ i, ∃ r : ℝ, x i = (r : EReal)) ∧ (∀ i, ∃ r : ℝ, g i = (r : EReal)) := by
  have h0 := congrFun h ValueIdx.ix0
  dsimp only [fn] at h0
  obtain ⟨hx, hg⟩ := IntOp.andi_eq_one.mp h0
  exact ⟨fun i => real_of_abs_lt_inf (x i) (Host.reduce_andi_all _ _ _ _ _ hx i),
    fun i => real_of_abs_lt_inf (g i) (Host.reduce_andi_all _ _ _ _ _ hg i)⟩

end Cert.Pre_finite_inputs.Finite

end
-- ==== Proof.lean ====
/-
  Temperature-scaled cosine-similarity logits: for x of 16384 rows and g of 8192 rows, each of 32 columns, entry (i, j) of
  the result is the inner product of row i of x and row j of g, each divided by its Euclidean norm floored at a small
  positive number, divided by the temperature.

  The reference computes exactly that: x / max (‖x‖, δ), g / max (‖g‖, δ), a matrix product, a division by τ, with δ and τ
  the numbers its two single-precision words denote. The kernel walks 64 blocks of 256 rows of x; in each it multiplies
  the rows of x by c · rsqrt (max (Σ x², ε)) and the rows of g by rsqrt (max (Σ g², ε)) and takes one matrix product. Its
  constants ε and c are named: ε is δ² and c is 1/τ, as exact rationals — the single-precision words the kernel carries for
  them are the roundings of those two numbers. With these values the two programs agree at every entry on arguments whose
  entries are real numbers: sqrt (max (s, δ²)) = max (sqrt s, δ) because the square root is monotone and δ > 0, and the
  factors c, 1/max(‖x‖, δ), 1/max(‖g‖, δ) move across the 32-term sum because all of them are real. The precondition
  (every input entry finite) is what makes the entries real, and it is used.

  The three frames are the generated ones (the reference's is its generated run with the result dropped). Reading the kernel
  in exact arithmetic rewrote exactly the three occurrences of the two named constants, which the table gives their values.
-/
import proofs.«129677_g38036230373755_cont_8to1_b_960_24_alg».proof.Defs
import proofs.«129677_g38036230373755_cont_8to1_b_960_24_alg».proof.Proof.Gen.Kernel
import proofs.«129677_g38036230373755_cont_8to1_b_960_24_alg».proof.Proof.Gen.Kernel.Skeleton
import proofs.«129677_g38036230373755_cont_8to1_b_960_24_alg».proof.Proof.Gen.Kernel.Launch
import proofs.«129677_g38036230373755_cont_8to1_b_960_24_alg».proof.Proof.Gen.Kernel.Points
import proofs.«129677_g38036230373755_cont_8to1_b_960_24_alg».proof.Proof.Gen.Kernel.Frame
import proofs.«129677_g38036230373755_cont_8to1_b_960_24_alg».proof.Proof.Gen.KernelIdeal
import proofs.«129677_g38036230373755_cont_8to1_b_960_24_alg».proof.Proof.Gen.KernelIdeal.Skeleton
import proofs.«129677_g38036230373755_cont_8to1_b_960_24_alg».proof.Proof.Gen.KernelIdeal.Launch
import proofs.«129677_g38036230373755_cont_8to1_b_960_24_alg».proof.Proof.Gen.KernelIdeal.Points
import proofs.«129677_g38036230373755_cont_8to1_b_960_24_alg».proof.Proof.Gen.KernelIdeal.Frame
import proofs.«129677_g38036230373755_cont_8to1_b_960_24_alg».proof.Proof.Gen.ReferenceIdeal
import proofs.«129677_g38036230373755_cont_8to1_b_960_24_alg».proof.Proof.Gen.KernelIdeal.Value
import proofs.«129677_g38036230373755_cont_8to1_b_960_24_alg».proof.Proof.Gen.ReferenceIdeal.Run
import proofs.«129677_g38036230373755_cont_8to1_b_960_24_alg».proof.Proof.Gen.ReferenceIdeal.Read
import proofs.«129677_g38036230373755_cont_8to1_b_960_24_alg».proof.Proof.Gen.Pre_finite_inputs
import proofs.«129677_g38036230373755_cont_8to1_b_960_24_alg».proof.Proof.Bridge
import proofs.«129677_g38036230373755_cont_8to1_b_960_24_alg».proof.Proof.FiniteInputs
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The three rewrites made when the kernel is read in exact arithmetic: the floor on the sum of squares (twice) is named
    δ², the scale is named 1/τ, and the table gives each name that value. -/
theorem preserves : Cert.preserves_Kernel_KernelIdeal :=
  ⟨IdealRules.named_const.statement Cert.KernelIdeal.κ "eps_squared" .f32 0x179ABE15#32
      ((5316911940649 / 5316911983139663491615228241121378304 : ℝ) : EReal) rfl,
    IdealRules.named_const.statement Cert.KernelIdeal.κ "inv_temperature" .f32 0x41200000#32
      ((134217728 / 13421773 : ℝ) : EReal) rfl,
    IdealRules.named_const.statement Cert.KernelIdeal.κ "eps_squared" .f32 0x179ABE15#32
      ((5316911940649 / 5316911983139663491615228241121378304 : ℝ) : EReal) rfl⟩

/-- Both programs end with the result array at one function of the arguments: the kernel's run leaves it block by block,
    the reference's run as its last stage, and on finite arguments the two are equal entry by entry. -/
theorem algebraic : Cert.algebraic_KernelIdeal_ReferenceIdeal := by
  intro m ρ m' ρ' hpre hagree
  refine ⟨fun c => Cert.KernelIdeal.Blocks.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v19_eq]
  obtain ⟨hx, hg⟩ := Cert.Pre_finite_inputs.Finite.real_entries _ _ (hpre c)
  exact (Cert.Proof.Bridge.logits_eq_reference _ _ hx hg).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
